-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x128 .f32) (main_arg1 : FVec F S1600000 .f32) (main_arg2 : FVec F S128x64 .f32) (main_arg3 : FVec F S64 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 27
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S128x64, .bf16⟩
  | .hbm, ⟨7, _⟩ => ⟨S100000x64, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x1, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .bf16⟩
  | .local _ .vmem, ⟨3, _⟩ => ⟨S5000x64, .f32⟩
  | .local _ .vmem, ⟨4, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S128x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.BlockProduct.lean ====
/-
  What the kernel body stores, read at one entry. The body loads a block of 5000 feature rows and the whole weight
  matrix, narrows both to a 16-bit format (no change on the extended reals), and multiplies them on the matrix unit into
  a zero accumulator. Entry (p, q) of what it stores is therefore the sum over k of block entry (p, k) times weight
  entry (k, q): 128 products.
-/
import proofs.«138180_j56556129354712_1_alg».proof.Proof.Gen.KernelIdeal.Skeleton
import proofs.«138180_j56556129354712_1_alg».proof.Proof.LibDotSum
import Idealize.ShloMosaic.Lib.Pipeline.Value
import Idealize.ShloMosaic.Lib.ValueIdx

noncomputable section

namespace Cert.KernelIdeal.BlockProduct

open Cert.KernelIdeal Cert.KernelIdeal.Gen Idealize.ShloMosaic Idealize.ShloMosaic.ValueIdx

/-- The product's dimension numbers: rows of the left operand by columns of the right, one contracted axis of 128. -/
local notation "dK" => dot_S5000x128_S128x64_S5000x64_1_0_0_1_n_n

/-- The left operand is read at the output's row … -/
theorem lhs_row (i : S5000x64.Idx) (c : (dK).contr.Idx) : ((dK).lhsIdx i c 0).val = (i 0).val := by
  unfold DotDims.lhsIdx
  rw [dif_neg (show ¬(0 : Fin S5000x128.rank) ∈ (dK).lhsBatch by decide),
    dif_pos (show (0 : Fin S5000x128.rank) ∈ (dK).lhsNonContracting by decide)]
  rfl
/-- … and at the contraction position along its columns. -/
theorem lhs_col (i : S5000x64.Idx) (c : (dK).contr.Idx) : ((dK).lhsIdx i c 1).val = (c ⟨0, by decide⟩).val :=
  (dK).lhsIdx_val_of_single rfl i c
/-- The right operand is read at the contraction position along its rows … -/
theorem rhs_row (i : S5000x64.Idx) (c : (dK).contr.Idx) : ((dK).rhsIdx i c 0).val = (c ⟨0, by decide⟩).val :=
  (dK).rhsIdx_val_of_single rfl i c
/-- … and at the output's column. -/
theorem rhs_col (i : S5000x64.Idx) (c : (dK).contr.Idx) : ((dK).rhsIdx i c 1).val = (i 1).val := by
  unfold DotDims.rhsIdx
  rw [dif_neg (show ¬(1 : Fin S128x64.rank) ∈ (dK).rhsBatch by decide),
    dif_pos (show (1 : Fin S128x64.rank) ∈ (dK).rhsNonContracting by decide)]
  rfl

/-- The left operand's index for output entry (p, q) at contraction position k is (p, k). -/
theorem lhs_at (p : Fin 5000) (q : Fin 64) (k : Fin 128) :
    (dK).lhsIdx (ix2 p q) ((contrEquiv1 (dK) 128 rfl rfl).symm k) = ix2 p k :=
  funext fun a => Fin.ext (by
    have hk := contrEquiv1_symm_val (dK) 128 rfl rfl k
    match a with
    | ⟨0, _⟩ => exact lhs_row _ _
    | ⟨1, _⟩ => exact (lhs_col _ _).trans hk)

/-- The right operand's index for output entry (p, q) at contraction position k is (k, q). -/
theorem rhs_at (p : Fin 5000) (q : Fin 64) (k : Fin 128) :
    (dK).rhsIdx (ix2 p q) ((contrEquiv1 (dK) 128 rfl rfl).symm k) = ix2 k q :=
  funext fun a => Fin.ext (by
    have hk := contrEquiv1_symm_val (dK) 128 rfl rfl k
    match a with
    | ⟨0, _⟩ => exact (rhs_row _ _).trans hk
    | ⟨1, _⟩ => exact rhs_col _ _)

/-- Entry (p, q) of the stored product: the inner product of row p of the loaded block with column q of the loaded
    weights. -/
theorem stored_at (x0 : Vec Ideal S5000x128 .f32) (x1 : Vec Ideal S128x64 .bf16) (p : Fin 5000) (q : Fin 64) :
    k0_pay1 (F := Ideal) x0 x1 (ix2 p q) = ∑ k : Fin 128, x0 (ix2 p k) * x1 (ix2 k q) := by
  unfold k0_pay1
  refine (DotSum.matmul_zero_eq_sum (dK) 128 rfl rfl _ _ (ix2 p q)
    (fun k => ix2 p k) (fun k => ix2 k q) (lhs_at p q) (rhs_at p q)).trans ?_
  refine Finset.sum_congr rfl fun k _ => ?_
  rw [shapeCast_self]
  rfl

end Cert.KernelIdeal.BlockProduct

end
-- ==== Proof.Support.lean ====
/-
  The support matrix of a graph convolution, as one function of the feature matrix and the weight matrix: entry
  (r, c) is the inner product of row r of the features (100000 rows of 128) with column c of the weights (128 rows of
  64), a sum of 128 products on the extended reals. Both programs compute exactly this matrix before their common
  gather / scale / scatter-add / bias steps; the kernel computes it 5000 rows at a time.
-/
import Idealize.ShloMosaic.Lib.ValueIdx

noncomputable section

namespace Cert.GraphConv

open Idealize.ShloMosaic Idealize.ShloMosaic.ValueIdx

/-- Row r of the features against column c of the weights. -/
def rowDot (x : FVec Ideal ⟨2, ![100000, 128]⟩ .f32) (w : FVec Ideal ⟨2, ![128, 64]⟩ .f32) (r : Fin 100000) (c : Fin 64) : EReal :=
  ∑ k : Fin 128, x (ix2 r k) * w (ix2 k c)

/-- The support matrix x · w, index by index. -/
def support (x : FVec Ideal ⟨2, ![100000, 128]⟩ .f32) (w : FVec Ideal ⟨2, ![128, 64]⟩ .f32) : FVec Ideal ⟨2, ![100000, 64]⟩ .f32 :=
  fun j => rowDot x w ⟨(j 0).val, (j 0).isLt⟩ ⟨(j 1).val, (j 1).isLt⟩

/-- At an index given by its coordinates. -/
theorem support_ix2 (x : FVec Ideal ⟨2, ![100000, 128]⟩ .f32) (w : FVec Ideal ⟨2, ![128, 64]⟩ .f32) (r : Fin 100000) (c : Fin 64) :
    support x w (ix2 r c) = ∑ k : Fin 128, x (ix2 r k) * w (ix2 k c) := rfl

end Cert.GraphConv

end
-- ==== Proof.SupportValue.lean ====
/-
  From the blocks to the array. Grid point t of the 20 loads feature rows 5000·t … 5000·t + 4999 and the whole weight
  matrix, and writes their product back to rows 5000·t … 5000·t + 4999 of the output array. Row p of that block is
  therefore row 5000·t + p of the support matrix, and since the 20 blocks tile the 100000 rows, the array ends holding
  the support matrix of the feature and weight arguments.
-/
import proofs.«138180_j56556129354712_1_alg».proof.Proof.Gen.KernelIdeal.Frame
import proofs.«138180_j56556129354712_1_alg».proof.Proof.BlockProduct
import proofs.«138180_j56556129354712_1_alg».proof.Proof.Support
import Idealize.ShloMosaic.Lib.Pipeline.Value
import Idealize.ShloMosaic.Lib.StableHlo.Run

noncomputable section

namespace Cert.KernelIdeal.SupportValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point t: the features and the output move down the rows with t, the
    weights stay. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The weights as the kernel finds them: the host narrows the weight argument to the 16-bit format before the
    kernel starts, which on the extended reals changes nothing. -/
theorem weights_found (c : Dev nD) :
    (V m c main_v0 : S128x64.Idx → EReal) = (m ((c : Thread nD τ).loc main_arg2) : S128x64.Idx → EReal) := by
  show StableHlo.after hostOps0 (fun b => m (c, b)) (Proc.devRef .tc main_v0) = _
  after_results
  rfl

/-- Entry (p, k) of the feature block at point t is entry (5000·t + p, k) of the feature argument. -/
theorem features_block (c : Dev nD) (t : Fin cfg0.N) (p : Fin 5000) (k : Fin 128) (r : Fin 100000)
    (hr : r.val = t.val * 5000 + p.val) :
    iblk m c 0 t (ix2 p k) = (m ((c : Thread nD τ).loc main_arg0) : S100000x128.Idx → EReal) (ix2 r k) := by
  show V m c main_arg0 (((cfg0.win 0).blk t).view.emb (ix2 p k)) = _
  rw [V_main_arg0]
  refine congrArg (m ((c : Thread nD τ).loc main_arg0) : S100000x128.Idx → EReal) ?_
  obtain ⟨e0, e1, -⟩ := block_positions t
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry (k, q) of the weight block at any point is entry (k, q) of the weight argument: the one block is the whole
    matrix. -/
theorem weights_block (c : Dev nD) (t : Fin cfg0.N) (k : Fin 128) (q : Fin 64) :
    iblk m c 1 t (ix2 k q) = (m ((c : Thread nD τ).loc main_arg2) : S128x64.Idx → EReal) (ix2 k q) := by
  show (V m c main_v0 : S128x64.Idx → EReal) (((cfg0.win 1).blk t).view.emb (ix2 k q)) = _
  rw [weights_found]
  refine congrArg (m ((c : Thread nD τ).loc main_arg2) : S128x64.Idx → EReal) ?_
  obtain ⟨-, -, e2, e3, -⟩ := block_positions t
  funext a; apply Fin.ext
  match a with
  | ⟨0, _⟩ => show win0_1.index t (0 : Fin 2) * 128 + 1 * k.val = k.val; omega
  | ⟨1, _⟩ => show win0_1.index t (1 : Fin 2) * 64 + 1 * q.val = q.val; omega

/-- What point t writes back is block t of the support matrix of the two arguments: entry (p, q) of the stored
    product is the inner product of feature row 5000·t + p with weight column q. -/
theorem flushed_eq (c : Dev nD) (t : Fin cfg0.N) :
    (dats m 0 c).flushed 2 t = ((cfg0.win 2).blk t).view.read (Elt Ideal)
      (Cert.GraphConv.support (m ((c : Thread nD τ).loc main_arg0)) (m ((c : Thread nD τ).loc main_arg2))) := by
  show (cfg0.win 2).cut (grid0.coords t) ((dats m 0 c).after 2 t) = _
  rw [after0_2]
  unfold out0_2
  rw [View.canon_unit_zero zero_offsets]
  simp only [View.ld_unit_zero (S := S5000x128) zero_offsets, View.ld_unit_zero (S := S128x64) zero_offsets]
  refine funext fun (y : S5000x64.Idx) => ?_
  obtain ⟨p, q, rfl⟩ : ∃ (p : Fin 5000) (q : Fin 64), y = ix2 p q := ⟨y 0, y 1, eq_ix2 y⟩
  have ht : t.val < 20 := lt_of_lt_of_eq t.isLt N_0
  have hr : t.val * 5000 + p.val < 100000 := by have := p.isLt; omega
  have hemb : ((cfg0.win 2).blk t).view.emb (ix2 p q) = ix2 (⟨t.val * 5000 + p.val, hr⟩ : Fin 100000) q := by
    obtain ⟨-, -, -, -, e4, e5⟩ := block_positions t
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show k0_pay1 (F := Ideal) (iblk m c 0 t) (iblk m c 1 t) (ix2 p q)
    = Cert.GraphConv.support (m ((c : Thread nD τ).loc main_arg0)) (m ((c : Thread nD τ).loc main_arg2))
        (((cfg0.win 2).blk t).view.emb (ix2 p q))
  rw [hemb, Cert.GraphConv.support_ix2]
  refine (BlockProduct.stored_at (iblk m c 0 t) (iblk m c 1 t) p q).trans ?_
  refine Finset.sum_congr rfl fun k _ => ?_
  rw [features_block m c t p k ⟨_, hr⟩ rfl, weights_block m c t k q]

/-- An entry of the output array lies in point t's block exactly when each coordinate lies in the block's range. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v1).slice (win0_2.rect t)).set ↔ _
  rw [View.set_slice_whole, Rect.mem_set_unit]
  exact Iff.rfl

/-- Every entry of the output array is in some point's block: row r is written by point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, htv⟩ : ∃ t : Fin cfg0.N, t.val = (i 0).val / 5000 :=
    ⟨⟨(i 0).val / 5000, lt_of_lt_of_eq (by omega : (i 0).val / 5000 < 20) N_0.symm⟩, rfl⟩
  obtain ⟨-, -, -, -, e4, e5⟩ := block_positions t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- After the kernel, the output array is the support matrix of the feature and weight arguments. -/
theorem final (c : Dev nD) :
    (dats m 0 c).arrAt 2 cfg0.N
      = Cert.GraphConv.support (m ((c : Thread nD τ).loc main_arg0)) (m ((c : Thread nD τ).loc main_arg2)) :=
  (dats m 0 c).arrAt_eq_of_cover 2 _ (fun t _ => flushed_eq m c t) covered

end Cert.KernelIdeal.SupportValue

end
-- ==== Proof.Aggregate.lean ====
/-
  The steps both programs apply to the support matrix. For each of the 1600000 edges: take the support row of the
  edge's source node (a negative node number counts from the end), scale it by the edge's weight; add the scaled rows
  up per destination node into a matrix of zeros; add the bias to every row. Each program spells these steps with its
  own copy of the same dimension numbers; the two spellings are one function.
-/
import proofs.«138180_j56556129354712_1_alg».proof.KernelIdeal
import proofs.«138180_j56556129354712_1_alg».proof.ReferenceIdeal
import Idealize.ShloMosaic.PureOps.Ideal

noncomputable section

open Idealize.ShloMosaic

namespace Cert.KernelIdeal

variable [Facts₀]
open Facts₀

/-- Gather, scale, add up per destination, add the bias: in the kernel program's spelling. -/
def aggregate (support : FVec Ideal S100000x64 .f32) (weights : (⟨S1600000, .f32⟩ : BufTy).Contents (Elt Ideal))
    (bias : (⟨S64, .f32⟩ : BufTy).Contents (Elt Ideal)) (src dst : (⟨S1600000, .i32⟩ : BufTy).Contents (Elt Ideal)) :
    FVec Ideal S100000x64 .f32 :=
  addf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (mulf (Host.gather gather_S100000x64_S1600000x1_S1600000x64_1_0_n_n_0_1_164 support (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x64 ![0, 1] bcast_S1600000x1_S1600000x64_0_1 (broadcastInDim S1600000x1 ![0] bcast_S1600000_S1600000x1_0 weights)))) (broadcastInDim S100000x64 ![0, 1] bcast_S1x64_S100000x64_0_1 (broadcastInDim S1x64 ![1] bcast_S64_S1x64_1 bias))

end Cert.KernelIdeal

namespace Cert.ReferenceIdeal

variable [Facts₀]
open Facts₀

/-- The same steps in the reference program's spelling. -/
def aggregate (support : FVec Ideal S100000x64 .f32) (weights : (⟨S1600000, .f32⟩ : BufTy).Contents (Elt Ideal))
    (bias : (⟨S64, .f32⟩ : BufTy).Contents (Elt Ideal)) (src dst : (⟨S1600000, .i32⟩ : BufTy).Contents (Elt Ideal)) :
    FVec Ideal S100000x64 .f32 :=
  addf (Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 dst) (mulf (Host.gather gather_S100000x64_S1600000x1_S1600000x64_1_0_n_n_0_1_164 support (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x64 ![0, 1] bcast_S1600000x1_S1600000x64_0_1 (broadcastInDim S1600000x1 ![0] bcast_S1600000_S1600000x1_0 weights)))) (broadcastInDim S100000x64 ![0, 1] bcast_S1x64_S100000x64_0_1 (broadcastInDim S1x64 ![1] bcast_S64_S1x64_1 bias))

end Cert.ReferenceIdeal

namespace Cert.GraphConv

/-- The two spellings are one function: the dimension numbers are the same lists, and the side conditions they carry
    are propositions. -/
theorem aggregate_eq [Cert.KernelIdeal.Facts₀] [Cert.ReferenceIdeal.Facts₀] :
    Cert.KernelIdeal.aggregate = Cert.ReferenceIdeal.aggregate := rfl

end Cert.GraphConv

end
-- ==== Proof.KernelRun.lean ====
/-
  The kernel program's run, read as a value: after the kernel the output array is the support matrix, and the host
  steps after it gather, scale, add up and add the bias over that array and the other arguments as launched.
-/
import proofs.«138180_j56556129354712_1_alg».proof.Proof.Gen.KernelIdeal.Frame
import proofs.«138180_j56556129354712_1_alg».proof.Proof.SupportValue
import proofs.«138180_j56556129354712_1_alg».proof.Proof.Aggregate
import Idealize.ShloMosaic.Lib.StableHlo.Run

noncomputable section

namespace Cert.KernelIdeal.SupportValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

set_option maxHeartbeats 2000000 in
/-- The result of the host steps after the kernel: the common steps over the kernel's output array and the
    arguments as launched. -/
theorem tail_result (c : Dev nD) :
    Pipeline.afterTail₀ cfgs (dats m) 0 (V0 m) [hostOps1] c main_v17
      = Cert.KernelIdeal.aggregate ((dats m 0 c).arrAt 2 cfg0.N) (m ((c : Thread nD τ).loc main_arg1))
          (m ((c : Thread nD τ).loc main_arg3)) (m ((c : Thread nD τ).loc main_arg4)) (m ((c : Thread nD τ).loc main_arg5)) := by
  unfold Pipeline.afterTail₀
  simp only [List.flatten_cons, List.flatten_nil, List.append_nil]
  after_results_simp
  have hv : Pipeline.withArrays (cfgs 0).spec c (V0 m c) (fun w => (dats m 0 c).arrAt w (cfgs 0).N) (Proc.devRef .tc main_v1)
      = (dats m 0 c).arrAt 2 cfg0.N := Pipeline.withArrays_arr spec0 launch0.win.arr_inj c _ _ 2
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans (V_main_arg5 m c)
  rw [hv, h1, h3, h4, h5]
  rfl

/-- The kernel program's run: every weakly fair execution terminates with the result at the common steps over the
    support matrix of the feature and weight arguments, and the six arguments unchanged. -/
theorem run : θ_run defs (onTc (τ := τ) (main (F := Ideal))) ⟨m, fun _ => 0, ρ⟩ fun r => ∀ c : Dev nD,
      r.2.mem ((c.tc : Thread nD τ).loc main_v17)
        = Cert.KernelIdeal.aggregate
            (Cert.GraphConv.support (m ((c.tc : Thread nD τ).loc main_arg0)) (m ((c.tc : Thread nD τ).loc main_arg2)))
            (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v17 (Pipeline.mem_restRefs_of main_v17 (by decide) (by decide))).trans
        ((tail_result m c).trans (by rw [final m c])),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.SupportValue

end
-- ==== Proof.RefSupport.lean ====
/-
  The reference's first step, the host's matrix product of the features with the weights, is the support matrix:
  its entry at an index is the same sum of 128 products, read through the product's dimension numbers.
-/
import proofs.«138180_j56556129354712_1_alg».proof.Proof.Gen.ReferenceIdeal.Read
import proofs.«138180_j56556129354712_1_alg».proof.Proof.Support

noncomputable section

namespace Cert.ReferenceIdeal.RefValue

open Cert.ReferenceIdeal Cert.ReferenceIdeal.Gen Idealize.ShloMosaic Idealize.ShloMosaic.ValueIdx

/-- The host's product of the whole feature matrix with the weight matrix is the support matrix. -/
theorem dot_eq_support (x : FVec Ideal S100000x128 .f32) (w : FVec Ideal S128x64 .f32) :
    Host.dotGeneral dot_S100000x128_S128x64_S100000x64_1_0_0_1_n_n none x w = Cert.GraphConv.support x w := by
  funext j
  refine (Read.val_main_v0_apply x w j).trans ?_
  show _ = ∑ k : Fin 128, x (ix2 (⟨(j 0).val, (j 0).isLt⟩ : Fin 100000) k) * w (ix2 k (⟨(j 1).val, (j 1).isLt⟩ : Fin 64))
  refine Finset.sum_congr rfl fun k _ => ?_
  have el : Read.lidx_main_v0 j k = ix2 (⟨(j 0).val, (j 0).isLt⟩ : Fin 100000) k :=
    funext fun a => by match a with | ⟨0, _⟩ => rfl | ⟨1, _⟩ => rfl
  have er : Read.ridx_main_v0 j k = ix2 k (⟨(j 1).val, (j 1).isLt⟩ : Fin 64) :=
    funext fun a => by match a with | ⟨0, _⟩ => rfl | ⟨1, _⟩ => rfl
  rw [el, er]

end Cert.ReferenceIdeal.RefValue

end
-- ==== Proof.lean ====
/-
  A graph convolution: out = A · (x · w) + bias, with the sparse adjacency A given as 1600000 weighted edges.

  Both programs first form the support matrix x · w (100000 × 64) and then apply the same steps to it: for every edge
  take the support row of the edge's source node and scale it by the edge's weight, add the scaled rows up per destination
  node into zeros, and add the bias to every row. The reference forms x · w with one matrix product on the host. The kernel
  forms it 5000 rows at a time on the matrix unit, from the features and weights narrowed to a 16-bit format and
  accumulated into zeros; on the extended reals the narrowing changes nothing and the zero accumulator adds nothing, so
  entry (r, c) of either is the same sum over k of x(r, k) · w(k, c), 128 products in the same order. The 20 blocks of 5000
  rows tile the 100000 rows, so the kernel's array is the whole support matrix.

  No law of arithmetic is used beyond 0 + s = s, so nothing here needs the inputs to be finite.

  Proof/Support.lean states the support matrix; Proof/BlockProduct.lean reads the kernel body's product at an entry;
  Proof/SupportValue.lean goes from the blocks to the array; Proof/KernelRun.lean reads the kernel program's run with the
  host steps after the kernel; Proof/RefSupport.lean reads the reference's product; Proof/Aggregate.lean names the common
  steps once.
-/
import proofs.«138180_j56556129354712_1_alg».proof.Defs
import proofs.«138180_j56556129354712_1_alg».proof.Proof.Gen.Kernel
import proofs.«138180_j56556129354712_1_alg».proof.Proof.Gen.Kernel.Skeleton
import proofs.«138180_j56556129354712_1_alg».proof.Proof.Gen.Kernel.Launch
import proofs.«138180_j56556129354712_1_alg».proof.Proof.Gen.Kernel.Points
import proofs.«138180_j56556129354712_1_alg».proof.Proof.Gen.Kernel.Frame
import proofs.«138180_j56556129354712_1_alg».proof.Proof.Gen.KernelIdeal
import proofs.«138180_j56556129354712_1_alg».proof.Proof.Gen.KernelIdeal.Skeleton
import proofs.«138180_j56556129354712_1_alg».proof.Proof.Gen.KernelIdeal.Launch
import proofs.«138180_j56556129354712_1_alg».proof.Proof.Gen.KernelIdeal.Points
import proofs.«138180_j56556129354712_1_alg».proof.Proof.Gen.KernelIdeal.Frame
import proofs.«138180_j56556129354712_1_alg».proof.Proof.Gen.ReferenceIdeal
import proofs.«138180_j56556129354712_1_alg».proof.Proof.Gen.ReferenceIdeal.Run
import proofs.«138180_j56556129354712_1_alg».proof.Proof.Gen.ReferenceIdeal.Read
import proofs.«138180_j56556129354712_1_alg».proof.Proof.Gen.Pre_finite_inputs
import proofs.«138180_j56556129354712_1_alg».proof.Proof.KernelRun
import proofs.«138180_j56556129354712_1_alg».proof.Proof.RefSupport
import proofs.«138180_j56556129354712_1_alg».proof.Proof.Aggregate
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference runs and keeps its arguments: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote no operation. -/
theorem preserves : Cert.preserves_Kernel_KernelIdeal := trivial

/-- From arguments that agree, both programs end with the common steps applied to the support matrix of the features and
    the weights: the kernel program because its 20 blocks make up that matrix, the reference because its one product is
    that matrix. -/
theorem algebraic : Cert.algebraic_KernelIdeal_ReferenceIdeal := by
  intro m ρ m' ρ' _ hagree
  refine ⟨fun c => Cert.ReferenceIdeal.aggregate
      (Cert.GraphConv.support (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.SupportValue.run m ρ)
    exact congrFun (congrFun (congrFun (congrFun (congrFun Cert.GraphConv.aggregate_eq _) _) _) _) _
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    exact congrArg (fun s => Cert.ReferenceIdeal.aggregate s
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (Cert.ReferenceIdeal.RefValue.dot_eq_support
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2)))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
